-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S256x512 : Shape := ⟨2, ![256, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S65536x512 .f32) (main_arg1 : FVec F S256x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S65536x512 : Shape := ⟨2, ![65536, 512]⟩
abbrev S256x512 : Shape := ⟨2, ![256, 512]⟩
abbrev S_ : Shape := ⟨0, ![]⟩
abbrev S256 : Shape := ⟨1, ![256]⟩
abbrev S256x1 : Shape := ⟨2, ![256, 1]⟩
abbrev S1x256 : Shape := ⟨2, ![1, 256]⟩
abbrev S512x256 : Shape := ⟨2, ![512, 256]⟩
abbrev S65536x256 : Shape := ⟨2, ![65536, 256]⟩
abbrev S2048x512 : Shape := ⟨2, ![2048, 512]⟩
abbrev S2048x256 : Shape := ⟨2, ![2048, 256]⟩
abbrev S2048 : Shape := ⟨1, ![2048]⟩
abbrev S2048x1 : Shape := ⟨2, ![2048, 1]⟩

abbrev nBuf : Space → Nat
  | .hbm => 10
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S256x512, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S1x256, .f32⟩
  | .hbm, ⟨7, _⟩ => ⟨S512x256, .f32⟩
  | .hbm, ⟨8, _⟩ => ⟨S512x256, .bf16⟩
  | .hbm, ⟨9, _⟩ => ⟨S65536x256, .f32⟩
  | .local _ .vmem, ⟨0, _⟩ => ⟨S2048x512, .f32⟩
  | .local _ .vmem, ⟨1, _⟩ => ⟨S2048x512, .f32⟩
  | .local _ .vmem, ⟨2, _⟩ => ⟨S512x256, .bf16⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S256x512_S256_d1 : S256x512.ReducesTo [1] S256
  h_S_ : 0 < S_.numel
  bcast_S256_S256x1_0 : S256.BroadcastsInDim S256x1 (![0] : Fin 1 → Fin S256x1.rank)
  transposes_S256x1_S1x256_1_0 : S256x1.Transposes [1, 0] S1x256
  transposes_S256x512_S512x256_1_0 : S256x512.Transposes [1, 0] S512x256
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S2048x512_S2048 : S2048x512.Reduces [1] S2048
  shapeCasts_S2048_S2048x1 : S2048.ShapeCasts S2048x1
  broadcasts_S2048x1_S2048x256 : S2048x1.Broadcasts S2048x256
  broadcasts_S1x256_S2048x256 : S1x256.Broadcasts S2048x256
  reduces_S2048x256_S2048 : S2048x256.Reduces [1] S2048
  inb_S2048x256_S2048x256_0_0 : ∀ a, (![0, 0] : Fin 2 → Nat) a + S2048x256.size a ≤ S2048x256.size a
  h_S2048x256 : 0 < S2048x256.numel
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S256x512 : Shape := ⟨2, ![256, 512]⟩
abbrev S_ : Shape := ⟨0, ![]⟩
abbrev S65536 : Shape := ⟨1, ![65536]⟩
abbrev S65536x1 : Shape := ⟨2, ![65536, 1]⟩
abbrev S256 : Shape := ⟨1, ![256]⟩
abbrev S512x256 : Shape := ⟨2, ![512, 256]⟩
abbrev S65536x256 : Shape := ⟨2, ![65536, 256]⟩
abbrev S1x256 : Shape := ⟨2, ![1, 256]⟩

abbrev nBuf : Space → Nat
  | .hbm => 39
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S65536x512, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S256x512, .f32⟩
  | .hbm, ⟨7, _⟩ => ⟨S_, .f32⟩
  | .hbm, ⟨8, _⟩ => ⟨S256, .f32⟩
  | .hbm, ⟨9, _⟩ => ⟨S512x256, .f32⟩
  | .hbm, ⟨10, _⟩ => ⟨S65536x256, .f32⟩
  | .hbm, ⟨11, _⟩ => ⟨S1x256, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S_, .f32⟩
  | .hbm, ⟨20, _⟩ => ⟨S65536x256, .f32⟩
  | .hbm, ⟨21, _⟩ => ⟨S65536x256, .f32⟩
  | .hbm, ⟨22, _⟩ => ⟨S_, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536x256, .f32⟩
  | .hbm, ⟨27, _⟩ => ⟨S65536x256, .f32⟩
  | .hbm, ⟨28, _⟩ => ⟨S_, .f32⟩
  | .hbm, ⟨29, _⟩ => ⟨S65536x256, .f32⟩
  | .hbm, ⟨30, _⟩ => ⟨S65536x256, .f32⟩
  | .hbm, ⟨31, _⟩ => ⟨S_, .f32⟩
  | .hbm, ⟨32, _⟩ => ⟨S65536x256, .f32⟩
  | .hbm, ⟨33, _⟩ => ⟨S65536x256, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S65536x256, .f32⟩
  | .hbm, ⟨38, _⟩ => ⟨S65536x256, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  reducesTo_S256x512_S256_d1 : S256x512.ReducesTo [1] S256
  transposes_S256x512_S512x256_1_0 : S256x512.Transposes [1, 0] S512x256
  bcast_S256_S1x256_1 : S256.BroadcastsInDim S1x256 (![1] : Fin 1 → Fin S1x256.rank)
  bcast_S65536x1_S65536x256_0_1 : S65536x1.BroadcastsInDim S65536x256 (![0, 1] : Fin 2 → Fin S65536x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  reducesTo_S65536x256_S65536_d1 : S65536x256.ReducesTo [1] S65536
  dot_S65536x512_S512x256_S65536x256_1_0_0_1_n_n_wf : DotDims.WF S65536x512 S512x256 S65536x256 [1] [0] [0] [1] [] []

variable [Facts₀]

def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf

class Facts : Prop extends Facts₀ where

variable [Facts]
-- ==== Proof.LibColumns.lean ====
/-
  Layout operations read at an index given by coordinates, for arrays that keep a reduced axis as a unit axis
  (a row sum kept as a column): a vector cast to a one-column matrix, a one-column matrix broadcast along its
  rows — both the general reading of a shape cast (equal row-major positions) and of a broadcast (the operand's
  unit axes read at 0) specialised to indices written with `ix1` / `ix2` — and their composition with a sum
  over the second axis on the extended reals: the row sums of a matrix, kept as a column and broadcast back to a
  matrix, read at `(p, c)` as the sum of row `p`.
-/
import Idealize.ShloMosaic.Lib.ValueLayout
import Idealize.ShloMosaic.PureOps.Ideal.Laws

namespace Cert.Lib.Columns

open Idealize.ShloMosaic Idealize.ShloMosaic.ValueIdx

variable {α : Type}

/-- An `[a]` array cast to the column `[a, 1]` reads, at `(i, u)`, the operand at `i`, whatever the unit
    coordinate `u`: the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals: the sums of the rows of an `[a, n]` matrix (a reduction over the second axis from the
    additive neutral), kept as the column `[a, 1]` and broadcast to `[a, b]`, read at `(p, c)` the sum of row `p`. -/
theorem rowSum_column_broadcast_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ src acc h hφ hacc) hc) hb (ix2 p c)
      = ∑ k : Fin n, src (ix2 p k) :=
  (broadcastTo_a1_ab_apply _ hb p c).trans
    ((shapeCast_a_a1_apply _ hc p 0).trans
      ((Ideal.multiReduction_add_single src acc h hφ hacc (ix1 p)).trans
        (Finset.sum_congr rfl fun k _ => congrArg src (funext fun ax => Fin.ext (by
          match ax with
          | ⟨0, _⟩ => rfl
          | ⟨1, _⟩ => rfl)))))

end Cert.Lib.Columns
-- ==== Proof.Spec.lean ====
/-
  The soft assignment of rows to centroids, as one function of the two argument arrays on the extended reals.
  For a row `b` of `X` (65536 rows of 512 entries) and a centroid `k` of `C` (256 rows of 512 entries):
    dist2 b k = max (‖X b‖² + ‖C k‖² − 2 · ⟨X b, C k⟩) 0      (the squared distance by its expansion, clamped at 0)
    kern  b k = 1 / (1 + dist2 b k)                            (the Student-t kernel with one degree of freedom)
    assign (b, k) = kern b k / Σ_k' kern b k'                  (each row normalised to sum 1)
  with `/` the extended reals' quotient `Ideal.div` and `2` the value of the single-precision word for 2.0, the
  same word in both programs and never evaluated. Also here: the three facts about the number 1 that join the two
  programs — the word for 1.0 denotes 1; a quotient by 1 and a power with exponent 1 are the identity on EVERY
  extended real, the infinities included, so no finiteness of the inputs is needed.
-/
import Idealize.ShloMosaic.PureOps.Ideal
import Idealize.ShloMosaic.PureOps.Ideal.Laws
import Idealize.ShloMosaic.Lib.ValueIdx

noncomputable section

namespace Cert.SoftAssign

open Idealize.ShloMosaic Idealize.ShloMosaic.ValueIdx

/-! ## The number 1 -/

/-- The single-precision word `0x3F800000` denotes the extended real 1. -/
theorem ofBits_one : Ideal.ofBits .f32 0x3F800000#32 = 1 := by
  simp [Ideal.ofBits, Ideal.ieee, -EReal.coe_mul]; norm_num

/-- A quotient by 1 is the identity: `x · 1⁻¹ = x`, at the infinities too. -/
theorem div_one (x : EReal) : Ideal.div x 1 = x := by
  unfold Ideal.div
  rw [if_neg one_ne_zero, ← EReal.coe_one, ← EReal.coe_inv, inv_one, EReal.coe_one, mul_one]

/-- A power with exponent 1 is the identity: `⊥` is kept, `⊤ ^ 1 = ⊤` since `0 < 1`, and a real `r ^ 1 = r`. -/
theorem pow_one (x : EReal) : Ideal.pow x 1 = x := by
  induction x using EReal.rec with
  | bot => rfl
  | top => rw [Ideal.pow_top, if_pos zero_lt_one]
  | coe r =>
    rw [← EReal.coe_one, Ideal.pow_coe_coe]
    exact congrArg _ (Real.rpow_one r)

/-! ## The function -/

/-- The word for 2.0, kept as a word. -/
abbrev two : EReal := Ideal.ofBits .f32 0x40000000#32

variable (X : (⟨2, ![65536, 512]⟩ : Shape).Idx → EReal) (C : (⟨2, ![256, 512]⟩ : Shape).Idx → EReal)

/-- The squared distance from row `b` to centroid `k` by its expansion, clamped at 0. -/
def dist2 (b : Fin 65536) (k : Fin 256) : EReal :=
  max (((∑ d : Fin 512, X (ix2 b d) * X (ix2 b d)) + (∑ d : Fin 512, C (ix2 k d) * C (ix2 k d)))
    - two * (∑ d : Fin 512, X (ix2 b d) * C (ix2 k d))) 0

/-- The Student-t kernel of that distance. -/
def kern (b : Fin 65536) (k : Fin 256) : EReal := Ideal.div 1 (1 + dist2 X C b k)

/-- Row `b`'s kernels normalised by their sum over the 256 centroids. -/
def assign : (⟨2, ![65536, 256]⟩ : Shape).Idx → EReal := fun i =>
  Ideal.div (kern X C (i 0) (i 1)) (∑ k' : Fin 256, kern X C (i 0) k')

theorem assign_ix2 (b : Fin 65536) (k : Fin 256) :
    assign X C (ix2 b k) = Ideal.div (kern X C b k) (∑ k' : Fin 256, kern X C b k') := rfl

end Cert.SoftAssign

end
-- ==== Proof.Body.lean ====
/-
  What the kernel body computes from its three loaded blocks, index by index, on the extended reals.
  The body is given a block `x` of 2048 rows of 512 entries, the 512 × 256 matrix `ct` (the centroids transposed)
  and the 1 × 256 row `n` (the centroids' squared norms). At `(p, q)` it stores
      kq p q / Σ_q' kq p q'      with      kq p q = 1 / (1 + max (Σ_d x(p,d)² + n(0,q) − 2 · Σ_d x(p,d) · ct(d,q)) 0).
  The pieces: the row norms are a lane sum kept as a column and broadcast along the rows; the cross term is a matrix
  product into a zero accumulator, a plain sum over the contracted axis; the change of format before the product is
  the identity; the factor `· 1` after the clamp is dropped since the word for 1.0 denotes 1.
-/
import proofs.«144385_j35064113004990_2_alg».proof.Proof.Gen.KernelIdeal.Skeleton
import proofs.«144385_j35064113004990_2_alg».proof.Proof.LibColumns
import proofs.«144385_j35064113004990_2_alg».proof.Proof.Spec
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Lib.Columns

/-! ## The body's pieces, named -/

/-- The squared norm of each row of the block, broadcast along the row. -/
def rowNorm (x : FVec Ideal S2048x512 .f32) : FVec Ideal S2048x256 .f32 :=
  broadcastTo S2048x256 (shapeCast S2048x1 (multiReduction .add [1] S2048 (mulf x x) 0x00000000#32 reduces_S2048x512_S2048 (.inl rfl) rfl)
    shapeCasts_S2048_S2048x1) broadcasts_S2048x1_S2048x256

/-- The row of centroid norms, repeated on every row. -/
def centNorm (n : FVec Ideal S1x256 .f32) : FVec Ideal S2048x256 .f32 :=
  broadcastTo S2048x256 (shapeCast S1x256 n shapeCasts_S1x256_S1x256) broadcasts_S1x256_S2048x256

/-- The products of the block's rows with the centroids. -/
def cross (x : FVec Ideal S2048x512 .f32) (ct : FVec Ideal S512x256 .bf16) : FVec Ideal S2048x256 .f32 :=
  matmul dot_S2048x512_S512x256_S2048x256_1_0_0_1_n_n none (truncf .bf16 x bitsLt_bf16_f32)
    (shapeCast S512x256 ct shapeCasts_S512x256_S512x256) (constant S2048x256 .f32 0x00000000#32)

/-- The Student-t kernel of the clamped squared distance. -/
def kq (x : FVec Ideal S2048x512 .f32) (ct : FVec Ideal S512x256 .bf16) (n : FVec Ideal S1x256 .f32) : FVec Ideal S2048x256 .f32 :=
  divf (broadcast S2048x256 (Scalar.ofBits .f32 0x3F800000#32))
    (addf (broadcast S2048x256 (Scalar.ofBits .f32 0x3F800000#32))
      (mulf (maximumf (subf (addf (rowNorm x) (centNorm n)) (mulf (broadcast S2048x256 (Scalar.ofBits .f32 0x40000000#32)) (cross x ct)))
          (broadcast S2048x256 (Scalar.ofBits .f32 0x00000000#32)))
        (broadcast S2048x256 (Scalar.ofBits .f32 0x3F800000#32))))

/-- The sum of each row of a 2048 × 256 matrix, broadcast along the row. -/
def rowSum (v : FVec Ideal S2048x256 .f32) : FVec Ideal S2048x256 .f32 :=
  broadcastTo S2048x256 (shapeCast S2048x1 (multiReduction .add [1] S2048 v 0x00000000#32 reduces_S2048x256_S2048 (.inl rfl) rfl)
    shapeCasts_S2048_S2048x1) broadcasts_S2048x1_S2048x256

/-- The stored value is the kernel matrix divided by its row sums: the generated payload, its intermediate values named. -/
theorem pay_eq (x : FVec Ideal S2048x512 .f32) (ct : FVec Ideal S512x256 .bf16) (n : FVec Ideal S1x256 .f32) :
    k0_pay1 (F := Ideal) x ct n = divf (kq x ct n) (rowSum (kq x ct n)) := rfl

/-! ## Each piece at an index -/

theorem rowNorm_apply (x : FVec Ideal S2048x512 .f32) (p : Fin 2048) (q : Fin 256) :
    rowNorm x (ix2 p q) = ∑ d : Fin 512, x (ix2 p d) * x (ix2 p d) :=
  rowSum_column_broadcast_apply (mulf x x) _ _ _ _ _ _ p q

theorem rowSum_apply (v : FVec Ideal S2048x256 .f32) (p : Fin 2048) (q : Fin 256) :
    rowSum v (ix2 p q) = ∑ q' : Fin 256, v (ix2 p q') :=
  rowSum_column_broadcast_apply v _ _ _ _ _ _ p q

theorem centNorm_apply (n : FVec Ideal S1x256 .f32) (p : Fin 2048) (q : Fin 256) :
    centNorm n (ix2 p q) = n (ix2 (0 : Fin 1) q) := by
  unfold centNorm
  rw [shapeCast_self]
  exact broadcastTo_1b_ab_apply n _ p q

/-- The left operand's row coordinate is the output's. -/
theorem lhs_row (i : S2048x256.Idx) (k : dot_S2048x512_S512x256_S2048x256_1_0_0_1_n_n.contr.Idx) :
    (dot_S2048x512_S512x256_S2048x256_1_0_0_1_n_n.lhsIdx i k 0).val = (i 0).val := by
  unfold DotDims.lhsIdx
  rw [dif_neg (show ¬(0 : Fin S2048x512.rank) ∈ dot_S2048x512_S512x256_S2048x256_1_0_0_1_n_n.lhsBatch by decide),
    dif_pos (show (0 : Fin S2048x512.rank) ∈ dot_S2048x512_S512x256_S2048x256_1_0_0_1_n_n.lhsNonContracting by decide)]
  rfl

/-- The right operand's column coordinate is the output's. -/
theorem rhs_col (i : S2048x256.Idx) (k : dot_S2048x512_S512x256_S2048x256_1_0_0_1_n_n.contr.Idx) :
    (dot_S2048x512_S512x256_S2048x256_1_0_0_1_n_n.rhsIdx i k 1).val = (i 1).val := by
  unfold DotDims.rhsIdx
  rw [dif_neg (show ¬(1 : Fin S512x256.rank) ∈ dot_S2048x512_S512x256_S2048x256_1_0_0_1_n_n.rhsBatch by decide),
    dif_pos (show (1 : Fin S512x256.rank) ∈ dot_S2048x512_S512x256_S2048x256_1_0_0_1_n_n.rhsNonContracting by decide)]
  rfl

/-- The matrix product at `(p, q)` is the sum over the 512 contracted coordinates. -/
theorem cross_apply (x : FVec Ideal S2048x512 .f32) (ct : FVec Ideal S512x256 .bf16) (p : Fin 2048) (q : Fin 256) :
    cross x ct (ix2 p q) = ∑ d : Fin 512, x (ix2 p d) * ct (ix2 d q) := by
  unfold cross
  rw [shapeCast_self]
  simp only [matmul]
  rw [Ideal.matmul_constant_zero_apply,
    ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p q)
      ((contrEquiv1 dot_S2048x512_S512x256_S2048x256_1_0_0_1_n_n 512 rfl rfl).symm k) = ix2 p k :=
    funext fun a => Fin.ext (by
      match a with
      | ⟨0, _⟩ => exact lhs_row _ _
      | ⟨1, _⟩ => exact (dot_S2048x512_S512x256_S2048x256_1_0_0_1_n_n.lhsIdx_val_of_single rfl _ _).trans hk)
  have er : dot_S2048x512_S512x256_S2048x256_1_0_0_1_n_n.rhsIdx (ix2 p q)
      ((contrEquiv1 dot_S2048x512_S512x256_S2048x256_1_0_0_1_n_n 512 rfl rfl).symm k) = ix2 k q :=
    funext fun a => Fin.ext (by
      match a with
      | ⟨0, _⟩ => exact (dot_S2048x512_S512x256_S2048x256_1_0_0_1_n_n.rhsIdx_val_of_single rfl _ _).trans hk
      | ⟨1, _⟩ => exact rhs_col _ _)
  rw [el, er]
  rfl

/-- The block's kernel at `(p, q)`, with the words for 0.0 and 1.0 read as 0 and 1. -/
def kqAt (x : FVec Ideal S2048x512 .f32) (ct : FVec Ideal S512x256 .bf16) (n : FVec Ideal S1x256 .f32) (p : Fin 2048) (q : Fin 256) : EReal :=
  Ideal.div 1 (1 + max (((∑ d : Fin 512, x (ix2 p d) * x (ix2 p d)) + n (ix2 (0 : Fin 1) q))
    - Cert.SoftAssign.two * (∑ d : Fin 512, x (ix2 p d) * ct (ix2 d q))) 0)

theorem kq_apply (x : FVec Ideal S2048x512 .f32) (ct : FVec Ideal S512x256 .bf16) (n : FVec Ideal S1x256 .f32) (p : Fin 2048) (q : Fin 256) :
    kq x ct n (ix2 p q) = kqAt x ct n p q := by
  show Ideal.div (Ideal.ofBits .f32 0x3F800000#32) (Ideal.ofBits .f32 0x3F800000#32
      + max ((rowNorm x (ix2 p q) + centNorm n (ix2 p q)) - Ideal.ofBits .f32 0x40000000#32 * cross x ct (ix2 p q))
          (Ideal.ofBits .f32 0x00000000#32) * Ideal.ofBits .f32 0x3F800000#32) = _
  rw [rowNorm_apply, centNorm_apply, cross_apply, Cert.SoftAssign.ofBits_one, Ideal.ofBits_zero_f32, mul_one]
  rfl

/-- THE BODY'S VALUE at `(p, q)`: the block's kernel there over the sum of its row. -/
theorem pay_apply (x : FVec Ideal S2048x512 .f32) (ct : FVec Ideal S512x256 .bf16) (n : FVec Ideal S1x256 .f32) (p : Fin 2048) (q : Fin 256) :
    k0_pay1 (F := Ideal) x ct n (ix2 p q) = Ideal.div (kqAt x ct n p q) (∑ q' : Fin 256, kqAt x ct n p q') := by
  rw [pay_eq]
  show Ideal.div (kq x ct n (ix2 p q)) (rowSum (kq x ct n) (ix2 p q)) = _
  rw [rowSum_apply, kq_apply]
  exact congrArg _ (Finset.sum_congr rfl fun q' _ => kq_apply x ct n p q')

end Cert.KernelIdeal.Body

end
-- ==== Proof.Entry.lean ====
/-
  What the region finds in the two arrays the host writes before it, on the extended reals, read at an index.
  The second window's array is the centroid matrix transposed (the change of format after the transpose is the
  identity): entry `(d, k)` is `C(k, d)`. The third window's array is the row of the centroids' squared norms: a
  sum over each centroid's 512 entries from the initial value 0, kept as a column and transposed into a row, so
  entry `(0, k)` is `Σ_d C(k,d)²`.
-/
import proofs.«144385_j35064113004990_2_alg».proof.Proof.Gen.KernelIdeal.Frame
import Idealize.ShloMosaic.Lib.StableHlo.Run
import Idealize.ShloMosaic.Lib.ValueLayout
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The centroid argument as the program was launched with it. -/
abbrev cent (c : Dev nD) : S256x512.Idx → EReal := m ((c : Thread nD τ).loc main_arg1)

/-- The second window's array as the region finds it. -/
abbrev ctArr (c : Dev nD) : S512x256.Idx → EReal := V m c main_v5

/-- The third window's array as the region finds it. -/
abbrev cnArr (c : Dev nD) : S1x256.Idx → EReal := V m c main_v3

/-- The second window's array at region entry: the centroids transposed. -/
theorem ctArr_eq (c : Dev nD) : ctArr m c
    = truncf (F := Ideal) .bf16 (transpose S512x256 [1, 0] (cent m c) transposes_S256x512_S512x256_1_0) bitsLt_bf16_f32 := by
  dsimp only [ctArr, Gen.V, Gen.hostOps0]; after_results

theorem ctArr_apply (c : Dev nD) (d : Fin 512) (k : Fin 256) : ctArr m c (ix2 d k) = cent m c (ix2 k d) := by
  rw [ctArr_eq]
  exact transpose_ix2_apply (cent m c) _ d k

/-- The third window's array at region entry: the centroids' squared norms as a row. -/
theorem cnArr_eq (c : Dev nD) : cnArr m c
    = transpose S1x256 [1, 0] (broadcastInDim S256x1 ![0] bcast_S256_S256x1_0
        (Host.reduceAdd (F := Ideal) (mulf (F := Ideal) (cent m c) (cent m c)) (constant (F := Ideal) S_ .f32 0x00000000#32) reducesTo_S256x512_S256_d1 h_S_))
        transposes_S256x1_S1x256_1_0 := by
  dsimp only [cnArr, Gen.V, Gen.hostOps0]; after_results

theorem cnArr_apply (c : Dev nD) (k : Fin 256) :
    cnArr m c (ix2 (0 : Fin 1) k) = ∑ d : Fin 512, cent m c (ix2 k d) * cent m c (ix2 k d) := by
  rw [cnArr_eq]
  refine (transpose_ix2_apply _ transposes_S256x1_S1x256_1_0 (0 : Fin 1) k).trans ?_
  refine (broadcastInDim_apply _ bcast_S256_S256x1_0 _ (ix2 k (0 : Fin 1)) (ix1 k) (fun a => match a with
    | ⟨0, _⟩ => by show k.val = if (256 : Nat) = 1 then 0 else k.val; rw [if_neg (by decide)])).trans ?_
  simp only [Host.reduceAdd, Ideal.hostReduceAdd_def]
  rw [Ideal.hostReduceAdd_single reducesTo_S256x512_S256_d1 (by decide)]
  show Ideal.ofBits .f32 0x00000000#32 + _ = _
  rw [Ideal.ofBits_zero_f32, zero_add]
  refine Finset.sum_congr rfl fun d _ => ?_
  show cent m c _ * cent m c _ = _
  have e : (Shape.Reduces.lift (s := S256x512) (t := S256) (by decide) (ix1 k) d) = ix2 k d :=
    funext fun a => Fin.ext (by match a with | ⟨0, _⟩ => rfl | ⟨1, _⟩ => rfl)
  rw [e]
  rfl

end Cert.KernelIdeal.Entry

end
-- ==== Proof.Blocks.lean ====
/-
  From blocks to the whole array. The grid has 32 points; point `t` is given rows `2048·t … 2048·t + 2047` of the
  row argument, the whole transposed centroid matrix and the whole row of centroid norms, and writes rows
  `2048·t … 2048·t + 2047` of the result. Each result entry depends only on its own row of the row argument and on
  the centroids, so what point `t` writes is block `t` of the soft assignment of the WHOLE arguments; the 32 row
  blocks tile the 65536 rows (row `r` lies in block `r / 2048`), so after the run the result array is the soft
  assignment.
-/
import proofs.«144385_j35064113004990_2_alg».proof.Proof.Gen.KernelIdeal.Value
import proofs.«144385_j35064113004990_2_alg».proof.Proof.Body
import proofs.«144385_j35064113004990_2_alg».proof.Proof.Entry
import proofs.«144385_j35064113004990_2_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.SoftAssign Cert.KernelIdeal.Entry
open Idealize.ShloMosaic.Pipeline (Dat)

variable (m : (ℓ : Loc nD τ sig) → Buf (Elt Ideal) ℓ) (ρ : Dev nD → PrngReg)

/-- The row argument as the program was launched with it. -/
abbrev rows (c : Dev nD) : S65536x512.Idx → EReal := m ((c : Thread nD τ).loc main_arg0)

/-- The soft assignment of the launch arguments. -/
abbrev result (c : Dev nD) : S65536x256.Idx → EReal := assign (rows m c) (cent m c)

theorem hz : (![0, 0] : Fin 2 → Nat) = fun _ => 0 := funext fun a => by fin_cases a <;> rfl

/-- The printed index maps, decided over the grid: the row window and the result window sit at block `(t, 0)`,
    the two centroid windows at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- THE BLOCK'S VALUE IS THE ARRAY'S: for a block `x` holding rows `2048·r …` of `X`, `ct` the transpose of `C` and `n`
    the row of `C`'s squared norms, the body's value at `j` is the soft assignment of `X` and `C` at the array index
    `i` under it (row `2048·r + j₀`, column `j₁`). -/
theorem block_value (X : S65536x512.Idx → EReal) (C : S256x512.Idx → EReal)
    (x : FVec Ideal S2048x512 .f32) (ct : FVec Ideal S512x256 .bf16) (n : FVec Ideal S1x256 .f32) (r : Nat)
    (hx : ∀ (y : S2048x512.Idx) (i : S65536x512.Idx), (i 0).val = r * 2048 + (y 0).val → (i 1).val = (y 1).val → x y = X i)
    (hct : ∀ (d : Fin 512) (k : Fin 256), ct (ix2 d k) = C (ix2 k d))
    (hn : ∀ k : Fin 256, n (ix2 (0 : Fin 1) k) = ∑ d : Fin 512, C (ix2 k d) * C (ix2 k d))
    (j : S2048x256.Idx) (i : S65536x256.Idx) (hi0 : (i 0).val = r * 2048 + (j 0).val) (hi1 : (i 1).val = (j 1).val) :
    k0_pay1 (F := Ideal) x ct n j = assign X C i := by
  obtain ⟨p, q, rfl⟩ : ∃ (p : Fin 2048) (q : Fin 256), j = ix2 p q := ⟨j 0, j 1, eq_ix2 j⟩
  obtain ⟨b, k, rfl⟩ : ∃ (b : Fin 65536) (k : Fin 256), i = ix2 b k := ⟨i 0, i 1, eq_ix2 i⟩
  obtain rfl : k = q := Fin.ext hi1
  have hb : b.val = r * 2048 + p.val := hi0
  have hk : ∀ q' : Fin 256, Body.kqAt x ct n p q' = kern X C b q' := fun q' => by
    unfold Body.kqAt kern dist2
    rw [hn q']
    have e1 : ∀ d : Fin 512, x (ix2 p d) = X (ix2 b d) := fun d => hx (ix2 p d) (ix2 b d) hb rfl
    have e2 : ∀ d : Fin 512, ct (ix2 d q') = C (ix2 q' d) := fun d => hct d q'
    simp only [e1, e2]
  rw [Body.pay_apply, assign_ix2, hk k]
  exact congrArg _ (Finset.sum_congr rfl fun q' _ => hk q')

/-- WHAT POINT `t` WRITES BACK is block `t` of the soft assignment of the launch arguments. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S2048x512) hz, View.ld_unit_zero (S := S512x256) hz, View.ld_unit_zero (S := S1x256) hz]
  obtain ⟨e00, e01, e10, e11, e20, e21, e30, e31⟩ := idx_facts t
  funext j
  show k0_pay1 (F := Ideal) (iblk m c 0 t) (iblk m c 1 t) (iblk m c 2 t) j = assign (rows m c) (cent m c) (((cfg0.win 3).blk t).view.emb j)
  refine block_value (rows m c) (cent m c) (iblk m c 0 t) (iblk m c 1 t) (iblk m c 2 t) t.val ?_ ?_ ?_ j (((cfg0.win 3).blk t).view.emb j) ?_ ?_
  · intro y i h0 h1
    show V m c main_arg0 (((cfg0.win 0).blk t).view.emb y) = rows m c i
    rw [V_main_arg0]
    refine congrArg (rows m c) (funext fun a => Fin.ext ?_)
    match a with
    | ⟨0, _⟩ => show win0_0.index t (0 : Fin 2) * 2048 + 1 * (y 0).val = (i 0).val; omega
    | ⟨1, _⟩ => show win0_0.index t (1 : Fin 2) * 512 + 1 * (y 1).val = (i 1).val; omega
  · intro d k
    show ctArr m c (((cfg0.win 1).blk t).view.emb (ix2 d k)) = cent m c (ix2 k d)
    have e : ((cfg0.win 1).blk t).view.emb (ix2 d k) = ix2 d k := funext fun a => Fin.ext (by
      match a with
      | ⟨0, _⟩ => show win0_1.index t (0 : Fin 2) * 512 + 1 * d.val = d.val; omega
      | ⟨1, _⟩ => show win0_1.index t (1 : Fin 2) * 256 + 1 * k.val = k.val; omega)
    rw [e]
    exact ctArr_apply m c d k
  · intro k
    show cnArr m c (((cfg0.win 2).blk t).view.emb (ix2 (0 : Fin 1) k)) = _
    have e : ((cfg0.win 2).blk t).view.emb (ix2 (0 : Fin 1) k) = ix2 (0 : Fin 1) k := funext fun a => Fin.ext (by
      match a with
      | ⟨0, _⟩ => show win0_2.index t (0 : Fin 2) * 1 + 1 * (0 : Fin 1).val = (0 : Fin 1).val; omega
      | ⟨1, _⟩ => show win0_2.index t (1 : Fin 2) * 256 + 1 * k.val = k.val; omega)
    rw [e]
    exact cnArr_apply m c k
  · show win0_3.index t (0 : Fin 2) * 2048 + 1 * (j 0).val = t.val * 2048 + (j 0).val; omega
  · show win0_3.index t (1 : Fin 2) * 256 + 1 * (j 1).val = (j 1).val; omega

/-- An index of the result array is in point `t`'s block iff each coordinate is in the block's range on its axis. -/
theorem mem_blk (t : Fin cfg0.N) (i : S65536x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v6).slice (win0_3.rect t)).set ↔ _
  rw [View.set_slice_whole, Rect.mem_set_unit]
  exact Iff.rfl

/-- Every index of the result array is in the block of the point `row / 2048`. -/
theorem cover (i : S65536x256.Idx) : ∃ t : Fin cfg0.N, (cfg0.win 3).flush t = true ∧ i ∈ ((cfg0.win 3).blk t).view.set := by
  have hN : grid0.N = 32 := N_0
  have hi0 : (i 0).val < 65536 := (i 0).isLt
  have hi1 : (i 1).val < 256 := (i 1).isLt
  have ht : (i 0).val / 2048 < grid0.N := by omega
  refine ⟨⟨(i 0).val / 2048, ht⟩, flush0_3 _, ?_⟩
  obtain ⟨-, -, -, -, -, -, e30, e31⟩ := idx_facts ⟨(i 0).val / 2048, ht⟩
  have e30' : win0_3.index ⟨(i 0).val / 2048, ht⟩ (0 : Fin 2) = (i 0).val / 2048 := e30
  rw [mem_blk]
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    omega
  | ⟨1, _⟩ =>
    show win0_3.index ⟨(i 0).val / 2048, ht⟩ (1 : Fin 2) * 256 ≤ (i 1).val ∧ (i 1).val < win0_3.index ⟨(i 0).val / 2048, ht⟩ (1 : Fin 2) * 256 + 256
    omega

/-- THE RESULT ARRAY after the run is the soft assignment of the launch arguments. -/
theorem final (c : Dev nD) : (dats m 0 c).arrAt 3 cfg0.N = result m c :=
  (dats m 0 c).arrAt_eq_of_cover 3 (result m c) (fun t _ => flushed_eq m c t) cover

/-- The run, read: the result array at the soft assignment, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.RefValue.lean ====
/-
  The reference program's result, stage by stage on the extended reals, is the soft assignment `assign X C`.
  Its stages: the rows' and the centroids' squared norms (sums from the initial value 0), the cross products (a
  matrix product with the transposed centroids), the clamped squared distance, then `1 / (1 + d / 1)` raised to the
  power 1, and the division by the row sums. The quotient by 1 and the power 1 are the identity on every extended
  real, so the reference's kernel is `1 / (1 + d)`.
-/
import proofs.«144385_j35064113004990_2_alg».proof.Proof.Gen.ReferenceIdeal.Read
import proofs.«144385_j35064113004990_2_alg».proof.Proof.Spec

noncomputable section

namespace Cert.ReferenceIdeal.RefValue

open Cert.ReferenceIdeal Cert.ReferenceIdeal.Read Idealize.ShloMosaic Idealize.ShloMosaic.ValueIdx Cert.SoftAssign

variable (X : (⟨S65536x512, .f32⟩ : BufTy).Contents (Elt Ideal)) (C : (⟨S256x512, .f32⟩ : BufTy).Contents (Elt Ideal))

/-- The squared norm of row `b`. -/
theorem rowNorm_apply (b : Fin 65536) : val_main_v1 (F := Ideal) X (ix1 b) = ∑ d : Fin 512, X (ix2 b d) * X (ix2 b d) := by
  rw [val_main_v1_apply]
  show Ideal.ofBits .f32 0x00000000#32 + _ = _
  rw [Ideal.ofBits_zero_f32, zero_add]
  refine Finset.sum_congr rfl fun d _ => ?_
  have e : idx_main_v1 (ix1 b) d = ix2 b d := funext fun a => Fin.ext (by match a with | ⟨0, _⟩ => rfl | ⟨1, _⟩ => rfl)
  rw [val_main_v0_apply, e]; rfl

/-- The squared norm of centroid `k`. -/
theorem centNorm_apply (k : Fin 256) : val_main_v4 (F := Ideal) C (ix1 k) = ∑ d : Fin 512, C (ix2 k d) * C (ix2 k d) := by
  rw [val_main_v4_apply]
  show Ideal.ofBits .f32 0x00000000#32 + _ = _
  rw [Ideal.ofBits_zero_f32, zero_add]
  refine Finset.sum_congr rfl fun d _ => ?_
  have e : idx_main_v4 (ix1 k) d = ix2 k d := funext fun a => Fin.ext (by match a with | ⟨0, _⟩ => rfl | ⟨1, _⟩ => rfl)
  rw [val_main_v3_apply, e]; rfl

/-- The cross product of row `b` with centroid `k`. -/
theorem cross_apply (b : Fin 65536) (k : Fin 256) :
    val_main_v6 (F := Ideal) X C (ix2 b k) = ∑ d : Fin 512, X (ix2 b d) * C (ix2 k d) := by
  rw [val_main_v6_apply]
  refine Finset.sum_congr rfl fun d _ => ?_
  have el : lidx_main_v6 (ix2 b k) d = ix2 b d := funext fun a => Fin.ext (by match a with | ⟨0, _⟩ => rfl | ⟨1, _⟩ => rfl)
  have er : idx_main_v5 (ridx_main_v6 (ix2 b k) d) = ix2 k d := funext fun a => Fin.ext (by match a with | ⟨0, _⟩ => rfl | ⟨1, _⟩ => rfl)
  rw [val_main_v5_apply, el, er]

/-- The clamped squared distance. -/
theorem dist2_apply (b : Fin 65536) (k : Fin 256) : val_main_v15 (F := Ideal) X C (ix2 b k) = dist2 X C b k := by
  have e8 : idx_main_v2 (idx_main_v8 (ix2 b k)) = ix1 b := funext fun a => Fin.ext (by match a with | ⟨0, _⟩ => rfl)
  have e9 : idx_main_v7 (idx_main_v9 (ix2 b k)) = ix1 k := funext fun a => Fin.ext (by match a with | ⟨0, _⟩ => rfl)
  rw [val_main_v15_apply, val_main_v13_apply, val_main_v10_apply, val_main_v8_apply, val_main_v2_apply, e8,
    val_main_v9_apply, val_main_v7_apply, e9, val_main_v12_apply, val_main_v11_apply, val_main_cst_1_apply,
    val_main_v14_apply, val_main_cst_2_apply, rowNorm_apply, centNorm_apply, cross_apply]
  show max ((_ + _) - Ideal.ofBits .f32 0x40000000#32 * _) (Ideal.ofBits .f32 0x00000000#32) = _
  rw [Ideal.ofBits_zero_f32]
  rfl

/-- The reference's kernel: the quotient by 1 and the power 1 dropped. -/
theorem kern_apply (b : Fin 65536) (k : Fin 256) : val_main_v23 (F := Ideal) X C (ix2 b k) = kern X C b k := by
  rw [val_main_v23_apply, val_main_v22_apply, val_main_cst_6_apply, val_main_v21_apply, val_main_v20_apply, val_main_cst_5_apply,
    val_main_v19_apply, val_main_v18_apply, val_main_cst_4_apply, val_main_v17_apply, val_main_v16_apply, val_main_cst_3_apply,
    dist2_apply]
  show Ideal.pow (Ideal.div (Ideal.ofBits .f32 0x3F800000#32) (Ideal.ofBits .f32 0x3F800000#32
    + Ideal.div (dist2 X C b k) (Ideal.ofBits .f32 0x3F800000#32))) (Ideal.ofBits .f32 0x3F800000#32) = _
  rw [ofBits_one, pow_one, div_one]
  rfl

/-- The sum of row `b`'s kernels. -/
theorem kernSum_apply (b : Fin 65536) : val_main_v24 (F := Ideal) X C (ix1 b) = ∑ k : Fin 256, kern X C b k := by
  rw [val_main_v24_apply]
  show Ideal.ofBits .f32 0x00000000#32 + _ = _
  rw [Ideal.ofBits_zero_f32, zero_add]
  refine Finset.sum_congr rfl fun k _ => ?_
  have e : idx_main_v24 (ix1 b) k = ix2 b k := funext fun a => Fin.ext (by match a with | ⟨0, _⟩ => rfl | ⟨1, _⟩ => rfl)
  rw [e, kern_apply]

/-- THE REFERENCE'S RESULT is the soft assignment. -/
theorem result_eq : val_main_v27 (F := Ideal) X C = assign X C := by
  funext i
  obtain ⟨b, k, rfl⟩ : ∃ (b : Fin 65536) (k : Fin 256), i = ix2 b k := ⟨i 0, i 1, eq_ix2 i⟩
  have e : idx_main_v25 (idx_main_v26 (ix2 b k)) = ix1 b := funext fun a => Fin.ext (by match a with | ⟨0, _⟩ => rfl)
  rw [val_main_v27_apply, val_main_v26_apply, val_main_v25_apply, e, kern_apply, kernSum_apply, assign_ix2]
  rfl

end Cert.ReferenceIdeal.RefValue

end
-- ==== Proof.lean ====
/-
  The kernel computes, for 65536 rows `X` and 256 centroids `C` of 512 entries each, the soft assignment
      assign (b, k) = kern b k / Σ_k' kern b k',   kern b k = 1 / (1 + max (‖X b‖² + ‖C k‖² − 2 ⟨X b, C k⟩) 0),
  row block by row block: the centroids' norms and the transposed centroids are prepared once on the host, and each of
  the 32 grid points forms the cross products of its 2048 rows by one matrix product, the rows' norms by a lane sum,
  and normalises each row. The reference computes the same quantities on the whole arrays, with the distance divided
  by 1 and the kernel raised to the power 1.
  On the extended reals the two agree at every input: a matrix product into a zero accumulator, a lane sum and the
  host's sums are plain finite sums; a change of float format is the identity; the product with 1, the quotient by 1
  and the power 1 are the identity on every extended real, the infinities included. No cancellation, distributivity
  or reordering is used, so the finiteness of the inputs is not needed.
  The modules: `Spec` states `assign`; `Body` reads the kernel body's stored value at an index; `Entry` reads the two
  host-prepared arrays at an index; `Blocks` shows each grid point writes its block of `assign` and that the blocks
  tile the result; `RefValue` shows the reference's result is `assign`. Both programs' runs then end at the same array.
  The idealized kernel is the printed kernel read on the extended reals, with no rewrite to justify.
-/
import proofs.«144385_j35064113004990_2_alg».proof.Defs
import proofs.«144385_j35064113004990_2_alg».proof.Proof.Gen.Kernel
import proofs.«144385_j35064113004990_2_alg».proof.Proof.Gen.Kernel.Skeleton
import proofs.«144385_j35064113004990_2_alg».proof.Proof.Gen.Kernel.Launch
import proofs.«144385_j35064113004990_2_alg».proof.Proof.Gen.Kernel.Points
import proofs.«144385_j35064113004990_2_alg».proof.Proof.Gen.Kernel.Frame
import proofs.«144385_j35064113004990_2_alg».proof.Proof.Gen.KernelIdeal
import proofs.«144385_j35064113004990_2_alg».proof.Proof.Gen.KernelIdeal.Skeleton
import proofs.«144385_j35064113004990_2_alg».proof.Proof.Gen.KernelIdeal.Launch
import proofs.«144385_j35064113004990_2_alg».proof.Proof.Gen.KernelIdeal.Points
import proofs.«144385_j35064113004990_2_alg».proof.Proof.Gen.KernelIdeal.Frame
import proofs.«144385_j35064113004990_2_alg».proof.Proof.Gen.KernelIdeal.Value
import proofs.«144385_j35064113004990_2_alg».proof.Proof.Gen.ReferenceIdeal.Run
import proofs.«144385_j35064113004990_2_alg».proof.Proof.Gen.ReferenceIdeal.Read
import proofs.«144385_j35064113004990_2_alg».proof.Proof.Gen.ReferenceIdeal
import proofs.«144385_j35064113004990_2_alg».proof.Proof.Gen.Pre_finite_inputs
import proofs.«144385_j35064113004990_2_alg».proof.Proof.Blocks
import proofs.«144385_j35064113004990_2_alg».proof.Proof.RefValue
import Idealize.ShloMosaic.Adequacy
import Idealize.ShloMosaic.Init

noncomputable section

namespace Cert.Proof

open Idealize.ShloMosaic Idealize.SL.Sem Cert.Kernel

/-- The kernel as printed runs and keeps its arguments. -/
theorem frame_kernel : Cert.frame_Kernel := fun m ρ _ => Cert.Kernel.Gen.frame m ρ

/-- The kernel on the extended reals runs and keeps its arguments. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the soft assignment of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
